-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x2048 : Shape := ⟨2, ![8192, 2048]⟩
abbrev S2048x1024 : Shape := ⟨2, ![2048, 1024]⟩
abbrev S2048 : Shape := ⟨1, ![2048]⟩
abbrev S2048x2048 : Shape := ⟨2, ![2048, 2048]⟩
abbrev S1024x2048 : Shape := ⟨2, ![1024, 2048]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024x2048 .f32) (main_arg12 : FVec F S1024 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S1024x2048 .f32 := Host.absf main_arg11
  let main_cst_20 : FVec F S_ .f32 := constant S_ .f32 0x7F800000#32
  let main_v55 : FVec F S1024x2048 .f32 := broadcastInDim S1024x2048 ![] bcast_S_S1024x2048 main_cst_20
  let main_v56 : IVec S1024x2048 1 := cmpf .olt main_v54 main_v55
  let main_c_21 : IVec S_ 1 := constantI S_ 1 1#1
  let main_v57 : IVec S_ 1 := (fun x v => Host.reduce IntOp.andi x v reducesTo_S1024x2048_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  main_v63

def fn_part2 {F : FTy → Type} [FloatOps F] (main_arg7 : FVec F S2048x2048 .f32) (main_arg8 : FVec F S2048x1024 .f32) (main_arg9 : FVec F S2048 .f32) (main_arg10 : FVec F S2048x2048 .f32) (main_arg11 : FVec F S1024x2048 .f32) (main_arg12 : FVec F S1024 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x1024 .f32 := Host.absf main_arg8
  let main_cst_14 : FVec F S_ .f32 := constant S_ .f32 0x7F800000#32
  let main_v40 : FVec F S2048x1024 .f32 := broadcastInDim S2048x1024 ![] bcast_S_S2048x1024 main_cst_14
  let main_v41 : IVec S2048x1024 1 := cmpf .olt main_v39 main_v40
  let main_c_15 : IVec S_ 1 := constantI S_ 1 1#1
  let main_v42 : IVec S_ 1 := (fun x v => Host.reduce IntOp.andi x v reducesTo_S2048x1024_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_v48 main_v49 main_v50

def fn_part1 {F : FTy → Type} [FloatOps F] (main_arg4 : FVec F S2048x2048 .f32) (main_arg5 : FVec F S2048x1024 .f32) (main_arg6 : FVec F S2048 .f32) (main_arg7 : FVec F S2048x2048 .f32) (main_arg8 : FVec F S2048x1024 .f32) (main_arg9 : FVec F S2048 .f32) (main_arg10 : FVec F S2048x2048 .f32) (main_arg11 : FVec F S1024x2048 .f32) (main_arg12 : FVec F S1024 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x1024 .f32) (main_arg1 : FVec F S8192x2048 .f32) (main_arg2 : FVec F S2048x1024 .f32) (main_arg3 : FVec F S2048 .f32) (main_arg4 : FVec F S2048x2048 .f32) (main_arg5 : FVec F S2048x1024 .f32) (main_arg6 : FVec F S2048 .f32) (main_arg7 : FVec F S2048x2048 .f32) (main_arg8 : FVec F S2048x1024 .f32) (main_arg9 : FVec F S2048 .f32) (main_arg10 : FVec F S2048x2048 .f32) (main_arg11 : FVec F S1024x2048 .f32) (main_arg12 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_arg11 main_arg12 main_v13 main_v16
-- ==== Kernel.lean ====
abbrev S8192x1024 : Shape := ⟨2, ![8192, 1024]⟩
abbrev S8192x2048 : Shape := ⟨2, ![8192, 2048]⟩
abbrev S2048x1024 : Shape := ⟨2, ![2048, 1024]⟩
abbrev S2048 : Shape := ⟨1, ![2048]⟩
abbrev S2048x2048 : Shape := ⟨2, ![2048, 2048]⟩
abbrev S1024x2048 : Shape := ⟨2, ![1024, 2048]⟩
abbrev S1024 : Shape := ⟨1, ![1024]⟩
abbrev S128x1024 : Shape := ⟨2, ![128, 1024]⟩
abbrev S128x2048 : Shape := ⟨2, ![128, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 22
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S2048x1024, .f32⟩
  | .hbm, ⟨3, _⟩ => ⟨S2048, .f32⟩
  | .hbm, ⟨4, _⟩ => ⟨S2048x2048, .f32⟩
  | .hbm, ⟨5, _⟩ => ⟨S2048x1024, .f32⟩
  | .hbm, ⟨6, _⟩ => ⟨S2048, .f32⟩
  | .hbm, ⟨7, _⟩ => ⟨S2048x2048, .f32⟩
  | .hbm, ⟨8, _⟩ => ⟨S2048x1024, .f32⟩
  | .hbm, ⟨9, _⟩ => ⟨S2048, .f32⟩
  | .hbm, ⟨10, _⟩ => ⟨S2048x2048, .f32⟩
  | .hbm, ⟨11, _⟩ => ⟨S1024x2048, .f32⟩
  | .hbm, ⟨12, _⟩ => ⟨S1024, .f32⟩
  | .hbm, ⟨13, _⟩ => ⟨S2048x1024, .bf16⟩
  | .hbm, ⟨14, _⟩ => ⟨S2048x2048, .bf16⟩
  | .hbm, ⟨15, _⟩ => ⟨S2048x1024, .bf16⟩
  | .hbm, ⟨16, _⟩ => ⟨S2048x2048, .bf16⟩
  | .hbm, ⟨17, _⟩ => ⟨S2048x1024, .bf16⟩
  | .hbm, ⟨18, _⟩ => ⟨S2048x2048, .bf16⟩
  | .hbm, ⟨19, _⟩ => ⟨S1024x2048, .bf16⟩
  | .hbm, ⟨20, _⟩ => ⟨S8192x2048, .f32⟩
  | .hbm, ⟨21, _⟩ => ⟨S8192x1024, .f32⟩
  | .local _ .vmem, ⟨0, _⟩ => ⟨S128x1024, .f32⟩
  | .local _ .vmem, ⟨1, _⟩ => ⟨S128x1024, .f32⟩
  | .local _ .vmem, ⟨2, _⟩ => ⟨S128x2048, .f32⟩
  | .local _ .vmem, ⟨3, _⟩ => ⟨S128x2048, .f32⟩
  | .local _ .vmem, ⟨4, _⟩ => ⟨S2048x1024, .bf16⟩
  | .local _ .vmem, ⟨5, _⟩ => ⟨S2048x2048, .bf16⟩
  | .local _ .vmem, ⟨6, _⟩ => ⟨S2048, .f32⟩
  | .local _ .vmem, ⟨7, _⟩ => ⟨S2048x1024, .bf16⟩
  | .local _ .vmem, ⟨8, _⟩ => ⟨S2048x2048, .bf16⟩
  | .local _ .vmem, ⟨9, _⟩ => ⟨S2048, .f32⟩
  | .local _ .vmem, ⟨10, _⟩ => ⟨S2048x1024, .bf16⟩
  | .local _ .vmem, ⟨11, _⟩ => ⟨S2048x2048, .bf16⟩
  | .local _ .vmem, ⟨12, _⟩ => ⟨S2048, .f32⟩
  | .local _ .vmem, ⟨13, _⟩ => ⟨S128x2048, .f32⟩
  | .local _ .vmem, ⟨14, _⟩ => ⟨S128x2048, .f32⟩
  | .local _ .vmem, ⟨15, _⟩ => ⟨S1024x2048, .f32⟩
  | .local _ .vmem, ⟨16, _⟩ => ⟨S1024x2048, .f32⟩
  | .local _ .vmem, ⟨17, _⟩ => ⟨S1024x2048, .bf16⟩
  | .local _ .vmem, ⟨18, _⟩ => ⟨S1024, .f32⟩
  | .local _ .vmem, ⟨19, _⟩ => ⟨S1024x1024, .f32⟩
  | .local _ .vmem, ⟨20, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem3_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  inb_S128x2048_S128x2048_0_0 : ∀ a, (![0, 0] : Fin 2 → Nat) a + S128x2048.size a ≤ S128x2048.size a
  h_S128x2048 : 0 < S128x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S128x2048 : S1x2048.Broadcasts S128x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S128x1024_S2048x1024_S128x2048_1_1_0_0_n_n_wf : DotDims.WF S128x1024 S2048x1024 S128x2048 [1] [1] [0] [0] [] []
  dot_S128x2048_S2048x2048_S128x2048_1_1_0_0_n_n_wf : DotDims.WF S128x2048 S2048x2048 S128x2048 [1] [1] [0] [0] [] []
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S8192x1024.size a
  hwx0_0 : ∀ i : grid0.Coords, EltTy.bits .f32 = 32 ∨ (Rect.block (s := S8192x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S8192x2048.size a
  hwx0_1 : ∀ i : grid0.Coords, EltTy.bits .f32 = 32 ∨ (Rect.block (s := S8192x2048) S128x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S2048.size a
  hwx0_4 : ∀ i : grid0.Coords, EltTy.bits .f32 = 32 ∨ (Rect.block (s := S2048) S2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S2048x1024.size a
  hwx0_5 : ∀ i : grid0.Coords, EltTy.bits .bf16 = 32 ∨ (Rect.block (s := S2048x1024) S2048x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x2048.size a ≤ S2048x2048.size a
  hwx0_6 : ∀ i : grid0.Coords, EltTy.bits .bf16 = 32 ∨ (Rect.block (s := S2048x2048) S2048x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048.size a ≤ S2048.size a
  hwx0_7 : ∀ i : grid0.Coords, EltTy.bits .f32 = 32 ∨ (Rect.block (s := S2048) S2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048x1024.size a ≤ S2048x1024.size a
  hwx0_8 : ∀ i : grid0.Coords, EltTy.bits .bf16 = 32 ∨ (Rect.block (s := S2048x1024) S2048x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x2048.size a ≤ S2048x2048.size a
  hwx0_9 : ∀ i : grid0.Coords, EltTy.bits .bf16 = 32 ∨ (Rect.block (s := S2048x2048) S2048x2048.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2048.size a ≤ S2048.size a
  hwx0_10 : ∀ i : grid0.Coords, EltTy.bits .f32 = 32 ∨ (Rect.block (s := S2048) S2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x2048.size a ≤ S8192x2048.size a
  hwx0_11 : ∀ i : grid0.Coords, EltTy.bits .f32 = 32 ∨ (Rect.block (s := S8192x2048) S128x2048.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x2048.size a
  hwx1_0 : ∀ i : grid1.Coords, EltTy.bits .f32 = 32 ∨ (Rect.block (s := S8192x2048) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S1024x2048.size a
  hwx1_1 : ∀ i : grid1.Coords, EltTy.bits .bf16 = 32 ∨ (Rect.block (s := S1024x2048) S1024x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .f32 = 32 ∨ (Rect.block (s := S8192x1024) S1024x1024.size (cc1_transform_3 i) (hinb1_3 i)).WholeWords (EltTy.packing .f32)

variable [Facts₀]

def dot_S128x1024_S2048x1024_S128x2048_1_1_0_0_n_n : DotDims S128x1024 S2048x1024 S128x2048 where
  lhsContracting := [1]
  rhsContracting := [1]
  lhsNonContracting := [0]
  rhsNonContracting := [0]
  lhsBatch := []
  rhsBatch := []
  wf := dot_S128x1024_S2048x1024_S128x2048_1_1_0_0_n_n_wf
def dot_S128x2048_S2048x2048_S128x2048_1_1_0_0_n_n : DotDims S128x2048 S2048x2048 S128x2048 where
  lhsContracting := [1]
  rhsContracting := [1]
  lhsNonContracting := [0]
  rhsNonContracting := [0]
  lhsBatch := []
  rhsBatch := []
  wf := dot_S128x2048_S2048x2048_S128x2048_1_1_0_0_n_n_wf
def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2048x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S2048x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S2048x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S2048x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v7) S128x2048.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v7) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S8192x2048 : Shape := ⟨2, ![8192, 2048]⟩
abbrev S2048x1024 : Shape := ⟨2, ![2048, 1024]⟩
abbrev S2048 : Shape := ⟨1, ![2048]⟩
abbrev S2048x2048 : Shape := ⟨2, ![2048, 2048]⟩
abbrev S1024x2048 : Shape := ⟨2, ![1024, 2048]⟩
abbrev S1024 : Shape := ⟨1, ![1024]⟩
abbrev S1x2048 : Shape := ⟨2, ![1, 2048]⟩
abbrev S_ : Shape := ⟨0, ![]⟩
abbrev S1x1024 : Shape := ⟨2, ![1, 1024]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S2048x1024, .f32⟩
  | .hbm, ⟨3, _⟩ => ⟨S2048, .f32⟩
  | .hbm, ⟨4, _⟩ => ⟨S2048x2048, .f32⟩
  | .hbm, ⟨5, _⟩ => ⟨S2048x1024, .f32⟩
  | .hbm, ⟨6, _⟩ => ⟨S2048, .f32⟩
  | .hbm, ⟨7, _⟩ => ⟨S2048x2048, .f32⟩
  | .hbm, ⟨8, _⟩ => ⟨S2048x1024, .f32⟩
  | .hbm, ⟨9, _⟩ => ⟨S2048, .f32⟩
  | .hbm, ⟨10, _⟩ => ⟨S2048x2048, .f32⟩
  | .hbm, ⟨11, _⟩ => ⟨S1024x2048, .f32⟩
  | .hbm, ⟨12, _⟩ => ⟨S1024, .f32⟩
  | .hbm, ⟨13, _⟩ => ⟨S1024x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S2048x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S1024x2048, .f32⟩
  | .hbm, ⟨30, _⟩ => ⟨S8192x2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S2048x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S1024x2048, .f32⟩
  | .hbm, ⟨46, _⟩ => ⟨S8192x2048, .f32⟩
  | .hbm, ⟨47, _⟩ => ⟨S1x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S2048x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S_, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S2048x1024, .f32⟩
  | .hbm, ⟨62, _⟩ => ⟨S8192x1024, .f32⟩
  | .hbm, ⟨63, _⟩ => ⟨S1x1024, .f32⟩
  | .hbm, ⟨64, _⟩ => ⟨S8192x1024, .f32⟩
  | .hbm, ⟨65, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_3 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]

class Facts₀ : Prop where
  transposes_S2048x1024_S1024x2048_1_0 : S2048x1024.Transposes [1, 0] S1024x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  transposes_S2048x2048_S2048x2048_1_0 : S2048x2048.Transposes [1, 0] S2048x2048
  bcast_S_S8192x2048 : S_.BroadcastsInDim S8192x2048 (![] : Fin 0 → Fin S8192x2048.rank)
  transposes_S1024x2048_S2048x1024_1_0 : S1024x2048.Transposes [1, 0] S2048x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x1024_S1024x2048_S8192x2048_1_0_0_1_n_n_wf : DotDims.WF S8192x1024 S1024x2048 S8192x2048 [1] [0] [0] [1] [] []
  dot_S8192x2048_S2048x2048_S8192x2048_1_0_0_1_n_n_wf : DotDims.WF S8192x2048 S2048x2048 S8192x2048 [1] [0] [0] [1] [] []
  dot_S8192x2048_S2048x1024_S8192x1024_1_0_0_1_n_n_wf : DotDims.WF S8192x2048 S2048x1024 S8192x1024 [1] [0] [0] [1] [] []

variable [Facts₀]

def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf
def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf

class Facts : Prop extends Facts₀ where

variable [Facts]
-- ==== Proof.Spec.lean ====
/-
  One step of a gated recurrent unit, written row by row over the extended reals.

  For an input row `v` (1024 entries) and a state row `u` (2048 entries), with every weight matrix stored by output
  feature (row `q` of `w` holds the coefficients of output `q`):
    gate  v u wx wh b q = σ((v · wx_q + u · wh_q) + b_q)                     (σ the logistic function)
    r = gate … (reset),  z = gate … (update)
    candidate_q = tanh((v · wxh_q + (r ⊙ u) · whh_q) + bh_q)
    newState_q  = z_q · u_q + (1 − z_q) · candidate_q
    out_q       = n · wo_q + bo_q                                             (n the new state row)
  Every entry of the new state depends on one row of the input and one row of the state only, so a batch of rows
  computed block by block and the same batch computed at once agree row by row.
-/
import Idealize.ShloMosaic.Lib.ValueIdx
import Idealize.ShloMosaic.PureOps.Ideal

noncomputable section

namespace Cert.Gru

open Idealize.ShloMosaic Idealize.ShloMosaic.ValueIdx
open scoped BigOperators

/-- A matrix of extended reals with `a` rows and `b` columns. -/
abbrev Mat (a b : Nat) : Type := (⟨2, ![a, b]⟩ : Shape).Idx → EReal
/-- A vector of extended reals with `a` entries. -/
abbrev Row (a : Nat) : Type := (⟨1, ![a]⟩ : Shape).Idx → EReal

/-- The inner product of a row `v` with row `q` of `w`. -/
def rowDot {K H : Nat} (v : Fin K → EReal) (w : Mat H K) (q : Fin H) : EReal :=
  ∑ k : Fin K, v k * w (ix2 q k)

/-- Row `p` of a matrix, as a function of the column. -/
abbrev rowOf {B K : Nat} (x : Mat B K) (p : Fin B) : Fin K → EReal := fun k => x (ix2 p k)

/-- The real number one, as the 32-bit pattern both programs spell it with. -/
abbrev one : EReal := Ideal.ofBits .f32 0x3F800000#32

/-- A gate: the logistic function of the two projections added, then the bias. -/
def gate (v : Fin 1024 → EReal) (u : Fin 2048 → EReal) (wx : Mat 2048 1024) (wh : Mat 2048 2048) (b : Row 2048)
    (q : Fin 2048) : EReal :=
  Ideal.logistic ((rowDot v wx q + rowDot u wh q) + b (ix1 q))

/-- The candidate state: tanh of the input projection plus the projection of the reset state, plus the bias. -/
def candidate (v : Fin 1024 → EReal) (u : Fin 2048 → EReal) (wxr : Mat 2048 1024) (whr : Mat 2048 2048) (br : Row 2048)
    (wxh : Mat 2048 1024) (whh : Mat 2048 2048) (bh : Row 2048) (q : Fin 2048) : EReal :=
  Ideal.tanh ((rowDot v wxh q + rowDot (fun k => gate v u wxr whr br k * u k) whh q) + bh (ix1 q))

/-- The new state row: the update gate blends the old state with the candidate. -/
def newStateRow (v : Fin 1024 → EReal) (u : Fin 2048 → EReal) (wxr : Mat 2048 1024) (whr : Mat 2048 2048) (br : Row 2048)
    (wxz : Mat 2048 1024) (whz : Mat 2048 2048) (bz : Row 2048)
    (wxh : Mat 2048 1024) (whh : Mat 2048 2048) (bh : Row 2048) (q : Fin 2048) : EReal :=
  gate v u wxz whz bz q * u q + (one - gate v u wxz whz bz q) * candidate v u wxr whr br wxh whh bh q

/-- The output row: the new state projected, plus the bias. -/
def outRow (n : Fin 2048 → EReal) (wo : Mat 1024 2048) (bo : Row 1024) (q : Fin 1024) : EReal :=
  rowDot n wo q + bo (ix1 q)

/-- The new state of a whole batch: row `p` from rows `p` of the input and of the state. -/
def newState {B : Nat} (x : Mat B 1024) (h : Mat B 2048) (wxr : Mat 2048 1024) (whr : Mat 2048 2048) (br : Row 2048)
    (wxz : Mat 2048 1024) (whz : Mat 2048 2048) (bz : Row 2048)
    (wxh : Mat 2048 1024) (whh : Mat 2048 2048) (bh : Row 2048) : Mat B 2048 :=
  fun i => newStateRow (rowOf x ⟨(i 0).val, (i 0).isLt⟩) (rowOf h ⟨(i 0).val, (i 0).isLt⟩) wxr whr br wxz whz bz wxh whh bh
    ⟨(i 1).val, (i 1).isLt⟩

/-- The output of a whole batch of state rows. -/
def output {B : Nat} (n : Mat B 2048) (wo : Mat 1024 2048) (bo : Row 1024) : Mat B 1024 :=
  fun i => outRow (rowOf n ⟨(i 0).val, (i 0).isLt⟩) wo bo ⟨(i 1).val, (i 1).isLt⟩

theorem newState_apply {B : Nat} (x : Mat B 1024) (h : Mat B 2048) (wxr : Mat 2048 1024) (whr : Mat 2048 2048) (br : Row 2048)
    (wxz : Mat 2048 1024) (whz : Mat 2048 2048) (bz : Row 2048)
    (wxh : Mat 2048 1024) (whh : Mat 2048 2048) (bh : Row 2048) (p : Fin B) (q : Fin 2048) :
    newState x h wxr whr br wxz whz bz wxh whh bh (ix2 p q)
      = newStateRow (rowOf x p) (rowOf h p) wxr whr br wxz whz bz wxh whh bh q := rfl

theorem output_apply {B : Nat} (n : Mat B 2048) (wo : Mat 1024 2048) (bo : Row 1024) (p : Fin B) (q : Fin 1024) :
    output n wo bo (ix2 p q) = outRow (rowOf n p) wo bo q := rfl

/-- The logistic function written out with the pattern of one: `1 / (1 + e^(−a))`, the quotient the extended reals'. -/
theorem logistic_spelled (a : EReal) : Ideal.div one (one + Ideal.exp (-a)) = Ideal.logistic a := by
  unfold one Ideal.logistic
  rw [show Ideal.ofBits .f32 0x3F800000#32 = (1 : EReal) from by
    rw [show (1 : EReal) = ((1 : ℝ) : EReal) by norm_cast]
    simp [Ideal.ofBits, Ideal.ieee, -EReal.coe_mul]; norm_num]

/-- Adding a bias before or after a second projection is the same sum: addition of extended reals is commutative and
    associative (no subtraction is involved, so the infinities do not matter). -/
theorem bias_first (a b c : EReal) : (a + c) + b = (a + b) + c := add_right_comm a c b

end Cert.Gru

end
-- ==== Proof.LibRowDot.lean ====
/-
  A matrix product that contracts the LAST axis of both operands, read at an index over the extended reals.

  For an [M, K] left operand and a [P, K] right operand (the shape of `x · Wᵀ` with `W` stored row-major by output
  feature), the product into a zero accumulator, read at `(p, q)`, is `Σ_k l(p, k) · r(q, k)`: the inner product of
  row `p` of the left operand with row `q` of the right one. The same holds of the host's general dot with no
  batch axis. The four facts about the dimension record that say which operand axis each result axis and the
  contraction position feed are hypotheses: a program proves them of its own record by unfolding.
-/
import Idealize.ShloMosaic.Lib.ValueIdx
import Idealize.ShloMosaic.PureOps.Ideal.Laws

noncomputable section

namespace Cert.LibRowDot

open Idealize.ShloMosaic Idealize.ShloMosaic.ValueIdx
open scoped BigOperators

variable {M K P : Nat} {φ₁ φ₂ : FTy}

/-- Both operand indices at result index `(p, q)` and contraction position `k`: `(p, k)` on the left, `(q, k)` on the
    right. -/
theorem operand_indices (D : DotDims ⟨2, ![M, K]⟩ ⟨2, ![P, K]⟩ ⟨2, ![M, P]⟩)
    (hr : D.contr.rank = 1) (hs : D.contr.size ⟨0, by omega⟩ = K)
    (hl0 : ∀ (j : (⟨2, ![M, P]⟩ : Shape).Idx) (c : D.contr.Idx), (D.lhsIdx j c 0).val = (j 0).val)
    (hl1 : ∀ (j : (⟨2, ![M, P]⟩ : Shape).Idx) (c : D.contr.Idx), (D.lhsIdx j c 1).val = (c ⟨0, by omega⟩).val)
    (hr0 : ∀ (j : (⟨2, ![M, P]⟩ : Shape).Idx) (c : D.contr.Idx), (D.rhsIdx j c 0).val = (j 1).val)
    (hr1 : ∀ (j : (⟨2, ![M, P]⟩ : Shape).Idx) (c : D.contr.Idx), (D.rhsIdx j c 1).val = (c ⟨0, by omega⟩).val)
    (p : Fin M) (q : Fin P) (k : Fin K) :
    D.lhsIdx (ix2 p q) ((contrEquiv1 D K hr hs).symm k) = ix2 p k
      ∧ D.rhsIdx (ix2 p q) ((contrEquiv1 D K hr hs).symm k) = ix2 q k := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact hr0 _ _
    | ⟨1, _⟩ => exact (hr1 _ _).trans hk

/-- The kernel's matrix product into a zero accumulator, at `(p, q)`: `Σ_k l(p, k) · r(q, k)`. -/
theorem matmul_zero_apply (D : DotDims ⟨2, ![M, K]⟩ ⟨2, ![P, K]⟩ ⟨2, ![M, P]⟩)
    (hr : D.contr.rank = 1) (hs : D.contr.size ⟨0, by omega⟩ = K)
    (hl0 : ∀ (j : (⟨2, ![M, P]⟩ : Shape).Idx) (c : D.contr.Idx), (D.lhsIdx j c 0).val = (j 0).val)
    (hl1 : ∀ (j : (⟨2, ![M, P]⟩ : Shape).Idx) (c : D.contr.Idx), (D.lhsIdx j c 1).val = (c ⟨0, by omega⟩).val)
    (hr0 : ∀ (j : (⟨2, ![M, P]⟩ : Shape).Idx) (c : D.contr.Idx), (D.rhsIdx j c 0).val = (j 1).val)
    (hr1 : ∀ (j : (⟨2, ![M, P]⟩ : Shape).Idx) (c : D.contr.Idx), (D.rhsIdx j c 1).val = (c ⟨0, by omega⟩).val)
    (prec : Option ContractPrecision) (lhs : FVec Ideal ⟨2, ![M, K]⟩ φ₁) (rhs : FVec Ideal ⟨2, ![P, K]⟩ φ₂) (p : Fin M) (q : Fin P) :
    FloatOps.matmul D prec lhs rhs (constant (F := Ideal) ⟨2, ![M, P]⟩ .f32 0x00000000#32) (ix2 p q)
      = ∑ k : Fin K, lhs (ix2 p k) * rhs (ix2 q k) := by
  refine (Ideal.matmul_constant_zero_apply D prec lhs rhs (ix2 p q)).trans ?_
  rw [← Equiv.sum_comp (contrEquiv1 D K hr hs).symm]
  refine Finset.sum_congr rfl fun k _ => ?_
  obtain ⟨el, er⟩ := operand_indices D hr hs hl0 hl1 hr0 hr1 p q k
  rw [el, er]

/-- The host's general dot with the same dimension record, at `(p, q)`: the same sum. -/
theorem dotGeneral_apply (D : DotDims ⟨2, ![M, K]⟩ ⟨2, ![P, K]⟩ ⟨2, ![M, P]⟩)
    (hr : D.contr.rank = 1) (hs : D.contr.size ⟨0, by omega⟩ = K)
    (hl0 : ∀ (j : (⟨2, ![M, P]⟩ : Shape).Idx) (c : D.contr.Idx), (D.lhsIdx j c 0).val = (j 0).val)
    (hl1 : ∀ (j : (⟨2, ![M, P]⟩ : Shape).Idx) (c : D.contr.Idx), (D.lhsIdx j c 1).val = (c ⟨0, by omega⟩).val)
    (hr0 : ∀ (j : (⟨2, ![M, P]⟩ : Shape).Idx) (c : D.contr.Idx), (D.rhsIdx j c 0).val = (j 1).val)
    (hr1 : ∀ (j : (⟨2, ![M, P]⟩ : Shape).Idx) (c : D.contr.Idx), (D.rhsIdx j c 1).val = (c ⟨0, by omega⟩).val)
    (prec : Option ContractPrecision) (sched : HostSchedule) (lhs : FVec Ideal ⟨2, ![M, K]⟩ φ₁) (rhs : FVec Ideal ⟨2, ![P, K]⟩ φ₂)
    (p : Fin M) (q : Fin P) :
    FloatOps.dotGeneral D prec sched lhs rhs (ix2 p q) = ∑ k : Fin K, lhs (ix2 p k) * rhs (ix2 q k) := by
  refine (Ideal.dotGeneral_apply D prec sched lhs rhs (ix2 p q)).trans ?_
  rw [← Equiv.sum_comp (contrEquiv1 D K hr hs).symm]
  refine Finset.sum_congr rfl fun k _ => ?_
  obtain ⟨el, er⟩ := operand_indices D hr hs hl0 hl1 hr0 hr1 p q k
  rw [el, er]

end Cert.LibRowDot

end
-- ==== Proof.CellBody.lean ====
/-
  What one block of the cell kernel stores, entry by entry.

  The body holds 128 input rows and 128 state rows and all six weight matrices. Each of its six matrix products
  contracts the last axis of both operands into a zero accumulator, so at `(p, q)` it is the inner product of row `p`
  of the left operand with row `q` of the weights; a bias row of 2048 entries is reshaped to one row and repeated down
  the 128 rows, so at `(p, q)` it is entry `q`; and rounding to the narrow format changes nothing over the extended
  reals. So the stored entry `(p, q)` is the new state of the row pair `(input row p, state row p)` at `q`.
-/
import proofs.«132467_j90701119357081_1_alg».proof.Proof.Gen.KernelIdeal.Skeleton
import proofs.«132467_j90701119357081_1_alg».proof.Proof.Spec
import proofs.«132467_j90701119357081_1_alg».proof.Proof.LibRowDot
import Idealize.ShloMosaic.Lib.ValueLayout

noncomputable section

namespace Cert.KernelIdeal.Cell

open Cert.KernelIdeal Cert.KernelIdeal.Gen Idealize.ShloMosaic Idealize.ShloMosaic.ValueIdx Cert.Gru
open scoped BigOperators

/-- The input projection: a [128, 1024] block (rounded) against a [2048, 1024] weight matrix. -/
theorem input_proj (v : FVec Ideal S128x1024 .f32) (w : FVec Ideal S2048x1024 .bf16) (p : Fin 128) (q : Fin 2048) :
    matmul dot_S128x1024_S2048x1024_S128x2048_1_1_0_0_n_n none (k0_pay2 v)
        (shapeCast S2048x1024 w shapeCasts_S2048x1024_S2048x1024) (constant S128x2048 .f32 0x00000000#32) (ix2 p q)
      = rowDot (rowOf v p) w q := by
  rw [shapeCast_self]
  exact Cert.LibRowDot.matmul_zero_apply dot_S128x1024_S2048x1024_S128x2048_1_1_0_0_n_n rfl rfl
    (fun j c => by
      unfold DotDims.lhsIdx
      rw [dif_neg (show ¬(0 : Fin S128x1024.rank) ∈ dot_S128x1024_S2048x1024_S128x2048_1_1_0_0_n_n.lhsBatch by decide),
        dif_pos (show (0 : Fin S128x1024.rank) ∈ dot_S128x1024_S2048x1024_S128x2048_1_1_0_0_n_n.lhsNonContracting by decide)]
      rfl)
    (fun j c => dot_S128x1024_S2048x1024_S128x2048_1_1_0_0_n_n.lhsIdx_val_of_single rfl j c)
    (fun j c => by
      unfold DotDims.rhsIdx
      rw [dif_neg (show ¬(0 : Fin S2048x1024.rank) ∈ dot_S128x1024_S2048x1024_S128x2048_1_1_0_0_n_n.rhsBatch by decide),
        dif_pos (show (0 : Fin S2048x1024.rank) ∈ dot_S128x1024_S2048x1024_S128x2048_1_1_0_0_n_n.rhsNonContracting by decide)]
      rfl)
    (fun j c => dot_S128x1024_S2048x1024_S128x2048_1_1_0_0_n_n.rhsIdx_val_of_single rfl j c)
    none (k0_pay2 v) w p q

/-- The state projection: a [128, 2048] left operand against a [2048, 2048] weight matrix. -/
theorem state_proj (l : FVec Ideal S128x2048 .bf16) (w : FVec Ideal S2048x2048 .bf16) (p : Fin 128) (q : Fin 2048) :
    matmul dot_S128x2048_S2048x2048_S128x2048_1_1_0_0_n_n none l w (constant S128x2048 .f32 0x00000000#32) (ix2 p q)
      = rowDot (fun k => l (ix2 p k)) w q :=
  Cert.LibRowDot.matmul_zero_apply dot_S128x2048_S2048x2048_S128x2048_1_1_0_0_n_n rfl rfl
    (fun j c => by
      unfold DotDims.lhsIdx
      rw [dif_neg (show ¬(0 : Fin S128x2048.rank) ∈ dot_S128x2048_S2048x2048_S128x2048_1_1_0_0_n_n.lhsBatch by decide),
        dif_pos (show (0 : Fin S128x2048.rank) ∈ dot_S128x2048_S2048x2048_S128x2048_1_1_0_0_n_n.lhsNonContracting by decide)]
      rfl)
    (fun j c => dot_S128x2048_S2048x2048_S128x2048_1_1_0_0_n_n.lhsIdx_val_of_single rfl j c)
    (fun j c => by
      unfold DotDims.rhsIdx
      rw [dif_neg (show ¬(0 : Fin S2048x2048.rank) ∈ dot_S128x2048_S2048x2048_S128x2048_1_1_0_0_n_n.rhsBatch by decide),
        dif_pos (show (0 : Fin S2048x2048.rank) ∈ dot_S128x2048_S2048x2048_S128x2048_1_1_0_0_n_n.rhsNonContracting by decide)]
      rfl)
    (fun j c => dot_S128x2048_S2048x2048_S128x2048_1_1_0_0_n_n.rhsIdx_val_of_single rfl j c)
    none l w p q

/-- A bias of 2048 entries, reshaped to one row and repeated down 128 rows, read at `(p, q)`: entry `q`. -/
theorem bias_rows (b : FVec Ideal S2048 .f32) (p : Fin 128) (q : Fin 2048) :
    broadcastTo S128x2048 (shapeCast S1x2048 b shapeCasts_S2048_S1x2048) broadcasts_S1x2048_S128x2048 (ix2 p q) = b (ix1 q) :=
  (broadcastTo_1b_ab_apply _ broadcasts_S1x2048_S128x2048 p q).trans
    (shapeCast_a_1a_apply b shapeCasts_S2048_S1x2048 (0 : Fin 1) q)

/-- A gate of the block at `(p, q)`: the gate of the row pair `p` at `q`. -/
theorem gate_entry (v : FVec Ideal S128x1024 .f32) (u : FVec Ideal S128x2048 .f32) (wx : FVec Ideal S2048x1024 .bf16)
    (wh : FVec Ideal S2048x2048 .bf16) (b : FVec Ideal S2048 .f32) (p : Fin 128) (q : Fin 2048) :
    k0_pay4 (F := Ideal) v u wx wh b (ix2 p q) = gate (rowOf v p) (rowOf u p) wx wh b q := by
  unfold k0_pay4 gate
  show Ideal.logistic ((matmul dot_S128x1024_S2048x1024_S128x2048_1_1_0_0_n_n none (k0_pay2 v)
        (shapeCast S2048x1024 wx shapeCasts_S2048x1024_S2048x1024) (constant S128x2048 .f32 0x00000000#32) (ix2 p q)
      + matmul dot_S128x2048_S2048x2048_S128x2048_1_1_0_0_n_n none (k0_pay3 u)
        (shapeCast S2048x2048 wh shapeCasts_S2048x2048_S2048x2048) (constant S128x2048 .f32 0x00000000#32) (ix2 p q))
      + broadcastTo S128x2048 (shapeCast S1x2048 b shapeCasts_S2048_S1x2048) broadcasts_S1x2048_S128x2048 (ix2 p q)) = _
  rw [input_proj, shapeCast_self, state_proj, bias_rows]
  rfl

/-- The reset state of the block at `(p, k)`: the reset gate times the state entry. -/
theorem reset_state_entry (v : FVec Ideal S128x1024 .f32) (u : FVec Ideal S128x2048 .f32) (wx : FVec Ideal S2048x1024 .bf16)
    (wh : FVec Ideal S2048x2048 .bf16) (b : FVec Ideal S2048 .f32) (p : Fin 128) (k : Fin 2048) :
    k0_pay5 (F := Ideal) v u wx wh b (ix2 p k) = gate (rowOf v p) (rowOf u p) wx wh b k * u (ix2 p k) := by
  unfold k0_pay5 gate
  show Ideal.logistic ((matmul dot_S128x1024_S2048x1024_S128x2048_1_1_0_0_n_n none (k0_pay2 v)
        (shapeCast S2048x1024 wx shapeCasts_S2048x1024_S2048x1024) (constant S128x2048 .f32 0x00000000#32) (ix2 p k)
      + matmul dot_S128x2048_S2048x2048_S128x2048_1_1_0_0_n_n none (k0_pay3 u)
        (shapeCast S2048x2048 wh shapeCasts_S2048x2048_S2048x2048) (constant S128x2048 .f32 0x00000000#32) (ix2 p k))
      + broadcastTo S128x2048 (shapeCast S1x2048 b shapeCasts_S2048_S1x2048) broadcasts_S1x2048_S128x2048 (ix2 p k))
      * u (ix2 p k) = _
  rw [input_proj, shapeCast_self, state_proj, bias_rows]
  rfl

/-- THE STORED ENTRY. What the body stores at `(p, q)`, from the blocks it loaded, is the new state of row pair `p`
    at `q`. -/
theorem stored_entry (v : FVec Ideal S128x1024 .f32) (u : FVec Ideal S128x2048 .f32)
    (wxr : FVec Ideal S2048x1024 .bf16) (whr : FVec Ideal S2048x2048 .bf16) (br : FVec Ideal S2048 .f32)
    (wxz : FVec Ideal S2048x1024 .bf16) (whz : FVec Ideal S2048x2048 .bf16) (bz : FVec Ideal S2048 .f32)
    (wxh : FVec Ideal S2048x1024 .bf16) (whh : FVec Ideal S2048x2048 .bf16) (bh : FVec Ideal S2048 .f32)
    (p : Fin 128) (q : Fin 2048) :
    k0_pay1 (F := Ideal) u (k0_pay4 v u wxz whz bz) (k0_pay5 v u wxr whr br) (k0_pay6 v wxh) (k0_pay7 whh)
        (constant S128x2048 .f32 0x00000000#32) bh (ix2 p q)
      = newStateRow (rowOf v p) (rowOf u p) wxr whr br wxz whz bz wxh whh bh q := by
  have ez := gate_entry v u wxz whz bz p q
  have ex : k0_pay6 (F := Ideal) v wxh (ix2 p q) = rowDot (rowOf v p) wxh q := by
    unfold k0_pay6; exact input_proj v wxh p q
  have eh : matmul (F := Ideal) dot_S128x2048_S2048x2048_S128x2048_1_1_0_0_n_n none (k0_pay5 v u wxr whr br) (k0_pay7 whh)
      (constant S128x2048 .f32 0x00000000#32) (ix2 p q)
      = rowDot (fun k => gate (rowOf v p) (rowOf u p) wxr whr br k * rowOf u p k) whh q := by
    have e7 : k0_pay7 (F := Ideal) whh = whh := by unfold k0_pay7; exact shapeCast_self _ _
    rw [e7]
    refine (state_proj _ _ p q).trans ?_
    unfold rowDot
    exact Finset.sum_congr rfl fun k _ => by
      show k0_pay5 (F := Ideal) v u wxr whr br (ix2 p k) * whh (ix2 q k) = _
      rw [reset_state_entry]
  have eb := bias_rows bh p q
  unfold k0_pay1 newStateRow candidate
  show k0_pay4 (F := Ideal) v u wxz whz bz (ix2 p q) * u (ix2 p q)
      + (Ideal.ofBits .f32 0x3F800000#32 - k0_pay4 (F := Ideal) v u wxz whz bz (ix2 p q))
        * Ideal.tanh ((k0_pay6 (F := Ideal) v wxh (ix2 p q)
            + matmul (F := Ideal) dot_S128x2048_S2048x2048_S128x2048_1_1_0_0_n_n none (k0_pay5 v u wxr whr br) (k0_pay7 whh)
                (constant S128x2048 .f32 0x00000000#32) (ix2 p q))
          + broadcastTo S128x2048 (shapeCast S1x2048 bh shapeCasts_S2048_S1x2048) broadcasts_S1x2048_S128x2048 (ix2 p q)) = _
  rw [ez, ex, eh, eb]

end Cert.KernelIdeal.Cell

end
-- ==== Proof.CellBlocks.lean ====
/-
  From the cell kernel's blocks to the whole new-state array.

  The grid has 64 points. Point `t` reads rows `128·t … 128·t + 127` of the input and of the state, reads every weight
  matrix and bias whole, and writes rows `128·t … 128·t + 127` of the result. Since entry `(p, q)` of what it writes is
  the new state of its row pair `p`, and that row pair is rows `128·t + p` of the two arrays, point `t` writes exactly
  its block of `newState` of the arrays as the region finds them; the 64 blocks cover all 8192 rows, so the array ends
  holding `newState`.
-/
import proofs.«132467_j90701119357081_1_alg».proof.Proof.Gen.KernelIdeal.Frame
import proofs.«132467_j90701119357081_1_alg».proof.Proof.CellBody
import Idealize.ShloMosaic.Lib.Pipeline.Value

noncomputable section

namespace Cert.KernelIdeal.Cell

open Cert.KernelIdeal Cert.KernelIdeal.Gen Idealize.ShloMosaic Idealize.ShloMosaic.TcCoe Idealize.SL.Sem
open Idealize.ShloMosaic.ValueIdx Cert.Gru
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The three moving windows (input, state, result) sit at block row `t`, block column 0. -/
theorem row_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_11.index t (0 : Fin 2) = t.val ∧ win0_11.index t (1 : Fin 2) = 0 :=
  (by decide +kernel : ∀ t : Fin grid0.N, _)

/-- The nine resident windows (weights and biases) sit at block 0 on every axis, at every point. -/
theorem whole_facts : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 1) = 0 :=
  (by decide +kernel : ∀ t : Fin grid0.N, _)

/-- Every block row is some point's. -/
theorem row_onto : ∀ r : Fin 64, ∃ t : Fin cfg0.N, t.val = r.val :=
  (by decide +kernel : ∀ r : Fin 64, ∃ t : Fin grid0.N, t.val = r.val)

/-! ## Each window's block, as entries of its array -/

/-- Row `p` of the input block at point `t` is row `128·t + p` of the input. -/
theorem input_block (c : Dev nD) (t : Fin cfg0.N) (p : Fin 128) (P : Fin 8192) (hP : P.val = 128 * t.val + p.val) :
    rowOf (iblk0 V c 0 t : Vec Ideal S128x1024 .f32) p = rowOf (V c main_arg0) P := by
  obtain ⟨e0, e1, -, -, -, -⟩ := row_facts t
  funext k
  show V c main_arg0 (((cfg0.win 0).blk t).view.emb (ix2 p k)) = V c main_arg0 (ix2 P k)
  refine congrArg (V c main_arg0) (funext fun a => Fin.ext ?_)
  match a with
  | ⟨0, _⟩ => show win0_0.index t (0 : Fin 2) * 128 + 1 * p.val = P.val; omega
  | ⟨1, _⟩ => show win0_0.index t (1 : Fin 2) * 1024 + 1 * k.val = k.val; omega

/-- Row `p` of the state block at point `t` is row `128·t + p` of the state. -/
theorem state_block (c : Dev nD) (t : Fin cfg0.N) (p : Fin 128) (P : Fin 8192) (hP : P.val = 128 * t.val + p.val) :
    rowOf (iblk0 V c 1 t : Vec Ideal S128x2048 .f32) p = rowOf (V c main_arg1) P := by
  obtain ⟨-, -, e0, e1, -, -⟩ := row_facts t
  funext k
  show V c main_arg1 (((cfg0.win 1).blk t).view.emb (ix2 p k)) = V c main_arg1 (ix2 P k)
  refine congrArg (V c main_arg1) (funext fun a => Fin.ext ?_)
  match a with
  | ⟨0, _⟩ => show win0_1.index t (0 : Fin 2) * 128 + 1 * p.val = P.val; omega
  | ⟨1, _⟩ => show win0_1.index t (1 : Fin 2) * 2048 + 1 * k.val = k.val; omega

/-! A resident window's block is its whole array: one statement, once per window. -/

theorem block2 (c : Dev nD) (t : Fin cfg0.N) : (iblk0 V c 2 t : Vec Ideal S2048x1024 .bf16) = V c main_v0 := by
  have e := whole_facts t
  funext y
  show V c main_v0 (((cfg0.win 2).blk t).view.emb y) = V c main_v0 y
  refine congrArg (V c main_v0) (funext fun a => Fin.ext ?_)
  match a with
    | ⟨0, _⟩ => show win0_2.index t (0 : Fin 2) * 2048 + 1 * (y 0).val = (y 0).val; omega
    | ⟨1, _⟩ => show win0_2.index t (1 : Fin 2) * 1024 + 1 * (y 1).val = (y 1).val; omega

theorem block3 (c : Dev nD) (t : Fin cfg0.N) : (iblk0 V c 3 t : Vec Ideal S2048x2048 .bf16) = V c main_v1 := by
  have e := whole_facts t
  funext y
  show V c main_v1 (((cfg0.win 3).blk t).view.emb y) = V c main_v1 y
  refine congrArg (V c main_v1) (funext fun a => Fin.ext ?_)
  match a with
    | ⟨0, _⟩ => show win0_3.index t (0 : Fin 2) * 2048 + 1 * (y 0).val = (y 0).val; omega
    | ⟨1, _⟩ => show win0_3.index t (1 : Fin 2) * 2048 + 1 * (y 1).val = (y 1).val; omega

theorem block4 (c : Dev nD) (t : Fin cfg0.N) : (iblk0 V c 4 t : Vec Ideal S2048 .f32) = V c main_arg3 := by
  have e := whole_facts t
  funext y
  show V c main_arg3 (((cfg0.win 4).blk t).view.emb y) = V c main_arg3 y
  refine congrArg (V c main_arg3) (funext fun a => Fin.ext ?_)
  match a with
    | ⟨0, _⟩ => show win0_4.index t (0 : Fin 1) * 2048 + 1 * (y 0).val = (y 0).val; omega

theorem block5 (c : Dev nD) (t : Fin cfg0.N) : (iblk0 V c 5 t : Vec Ideal S2048x1024 .bf16) = V c main_v2 := by
  have e := whole_facts t
  funext y
  show V c main_v2 (((cfg0.win 5).blk t).view.emb y) = V c main_v2 y
  refine congrArg (V c main_v2) (funext fun a => Fin.ext ?_)
  match a with
    | ⟨0, _⟩ => show win0_5.index t (0 : Fin 2) * 2048 + 1 * (y 0).val = (y 0).val; omega
    | ⟨1, _⟩ => show win0_5.index t (1 : Fin 2) * 1024 + 1 * (y 1).val = (y 1).val; omega

theorem block6 (c : Dev nD) (t : Fin cfg0.N) : (iblk0 V c 6 t : Vec Ideal S2048x2048 .bf16) = V c main_v3 := by
  have e := whole_facts t
  funext y
  show V c main_v3 (((cfg0.win 6).blk t).view.emb y) = V c main_v3 y
  refine congrArg (V c main_v3) (funext fun a => Fin.ext ?_)
  match a with
    | ⟨0, _⟩ => show win0_6.index t (0 : Fin 2) * 2048 + 1 * (y 0).val = (y 0).val; omega
    | ⟨1, _⟩ => show win0_6.index t (1 : Fin 2) * 2048 + 1 * (y 1).val = (y 1).val; omega

theorem block7 (c : Dev nD) (t : Fin cfg0.N) : (iblk0 V c 7 t : Vec Ideal S2048 .f32) = V c main_arg6 := by
  have e := whole_facts t
  funext y
  show V c main_arg6 (((cfg0.win 7).blk t).view.emb y) = V c main_arg6 y
  refine congrArg (V c main_arg6) (funext fun a => Fin.ext ?_)
  match a with
    | ⟨0, _⟩ => show win0_7.index t (0 : Fin 1) * 2048 + 1 * (y 0).val = (y 0).val; omega

theorem block8 (c : Dev nD) (t : Fin cfg0.N) : (iblk0 V c 8 t : Vec Ideal S2048x1024 .bf16) = V c main_v4 := by
  have e := whole_facts t
  funext y
  show V c main_v4 (((cfg0.win 8).blk t).view.emb y) = V c main_v4 y
  refine congrArg (V c main_v4) (funext fun a => Fin.ext ?_)
  match a with
    | ⟨0, _⟩ => show win0_8.index t (0 : Fin 2) * 2048 + 1 * (y 0).val = (y 0).val; omega
    | ⟨1, _⟩ => show win0_8.index t (1 : Fin 2) * 1024 + 1 * (y 1).val = (y 1).val; omega

theorem block9 (c : Dev nD) (t : Fin cfg0.N) : (iblk0 V c 9 t : Vec Ideal S2048x2048 .bf16) = V c main_v5 := by
  have e := whole_facts t
  funext y
  show V c main_v5 (((cfg0.win 9).blk t).view.emb y) = V c main_v5 y
  refine congrArg (V c main_v5) (funext fun a => Fin.ext ?_)
  match a with
    | ⟨0, _⟩ => show win0_9.index t (0 : Fin 2) * 2048 + 1 * (y 0).val = (y 0).val; omega
    | ⟨1, _⟩ => show win0_9.index t (1 : Fin 2) * 2048 + 1 * (y 1).val = (y 1).val; omega

theorem block10 (c : Dev nD) (t : Fin cfg0.N) : (iblk0 V c 10 t : Vec Ideal S2048 .f32) = V c main_arg9 := by
  have e := whole_facts t
  funext y
  show V c main_arg9 (((cfg0.win 10).blk t).view.emb y) = V c main_arg9 y
  refine congrArg (V c main_arg9) (funext fun a => Fin.ext ?_)
  match a with
    | ⟨0, _⟩ => show win0_10.index t (0 : Fin 1) * 2048 + 1 * (y 0).val = (y 0).val; omega

/-! ## What a point writes back, the cover, the array -/

/-- The new state of the batch, of the arrays as the region finds them. -/
abbrev cellResult (c : Dev nD) : S8192x2048.Idx → EReal :=
  newState (V c main_arg0) (V c main_arg1) (V c main_v0) (V c main_v1) (V c main_arg3) (V c main_v2) (V c main_v3)
    (V c main_arg6) (V c main_v4) (V c main_v5) (V c main_arg9)

/-- WHAT POINT `t` WRITES BACK is its block of the batch's new state. -/
theorem flushed_cell (c : Dev nD) (t : Fin cfg0.N) :
    (dat0 V c).flushed 11 t = ((cfg0.win 11).blk t).view.read (Elt Ideal) (cellResult V c) := by
  show (cfg0.win 11).cut (grid0.coords t) ((dat0 V c).after 11 t) = _
  rw [after0_11]
  unfold out0_11
  rw [View.canon_unit_zero zero2]
  simp only [View.ld_unit_zero (S := S128x1024) zero2, View.ld_unit_zero (S := S128x2048) zero2,
    View.ld_unit_zero (S := S2048x1024) zero2, View.ld_unit_zero (S := S2048x2048) zero2, View.ld_unit_zero (S := S2048) zero1]
  obtain ⟨-, -, -, -, e0, e1⟩ := row_facts t
  have hN : cfg0.N = 64 := N_0
  funext j
  obtain ⟨p, q, rfl⟩ : ∃ (p : Fin 128) (q : Fin 2048), j = ix2 p q := ⟨j 0, j 1, eq_ix2 j⟩
  have ht : t.val < 64 := hN ▸ t.isLt
  let P : Fin 8192 := ⟨128 * t.val + p.val, by have := p.isLt; omega⟩
  have hj : ((cfg0.win 11).blk t).view.emb (ix2 p q) = ix2 P q := funext fun a => Fin.ext (by
    match a with
    | ⟨0, _⟩ => show win0_11.index t (0 : Fin 2) * 128 + 1 * p.val = 128 * t.val + p.val; omega
    | ⟨1, _⟩ => show win0_11.index t (1 : Fin 2) * 2048 + 1 * q.val = q.val; omega)
  show k0_pay1 (F := Ideal) (iblk0 V c 1 t) (k0_pay4 (iblk0 V c 0 t) (iblk0 V c 1 t) (iblk0 V c 5 t) (iblk0 V c 6 t) (iblk0 V c 7 t))
      (k0_pay5 (iblk0 V c 0 t) (iblk0 V c 1 t) (iblk0 V c 2 t) (iblk0 V c 3 t) (iblk0 V c 4 t)) (k0_pay6 (iblk0 V c 0 t) (iblk0 V c 8 t))
      (k0_pay7 (iblk0 V c 9 t)) (constant S128x2048 .f32 0x00000000#32) (iblk0 V c 10 t) (ix2 p q)
    = cellResult V c (((cfg0.win 11).blk t).view.emb (ix2 p q))
  rw [hj]
  refine (stored_entry (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) p q).trans ?_
  rw [input_block V c t p P rfl, state_block V c t p P rfl, block2, block3, block4, block5, block6, block7, block8, block9, block10]
  rfl

/-- An index of the result is in point `t`'s block iff each coordinate is in the block's range on its axis. -/
theorem mem_block (t : Fin cfg0.N) (i : S8192x2048.Idx) :
    i ∈ ((cfg0.win 11).blk t).view.set ↔ ∀ a : Fin 2, win0_11.index t a * S128x2048.size a ≤ (i a).val
      ∧ (i a).val < win0_11.index t a * S128x2048.size a + S128x2048.size a := by
  show i ∈ ((View.whole main_v7).slice (win0_11.rect t)).set ↔ _
  rw [View.set_slice_whole, Rect.mem_set_unit]
  exact Iff.rfl

/-- Every entry of the result lies in the block of the point that owns its row: point `row / 128`. -/
theorem covered (i : S8192x2048.Idx) : ∃ t : Fin cfg0.N, (cfg0.win 11).flush t = true ∧ i ∈ ((cfg0.win 11).blk t).view.set := by
  have hi0 : (i 0).val < 8192 := (i 0).isLt
  have hi1 : (i 1).val < 2048 := (i 1).isLt
  obtain ⟨t, ht⟩ := row_onto ⟨(i 0).val / 128, by omega⟩
  have ht' : t.val = (i 0).val / 128 := ht
  obtain ⟨-, -, -, -, e0, e1⟩ := row_facts t
  refine ⟨t, flush0_11 t, ?_⟩
  rw [mem_block]
  intro a
  match a with
  | ⟨0, _⟩ => show win0_11.index t (0 : Fin 2) * 128 ≤ (i 0).val ∧ (i 0).val < win0_11.index t (0 : Fin 2) * 128 + 128; omega
  | ⟨1, _⟩ => show win0_11.index t (1 : Fin 2) * 2048 ≤ (i 1).val ∧ (i 1).val < win0_11.index t (1 : Fin 2) * 2048 + 2048; omega

/-- THE ARRAY after the region: the batch's new state, of the arrays as the region finds them. -/
theorem final_cell (c : Dev nD) : (dat0 V c).arrAt 11 cfg0.N = cellResult V c :=
  (dat0 V c).arrAt_eq_of_cover 11 (cellResult V c) (fun t _ => flushed_cell V c t) covered

end Cert.KernelIdeal.Cell

end
-- ==== Proof.OutBody.lean ====
/-
  What one block of the output kernel stores, entry by entry.

  The body holds 1024 new-state rows, the whole [1024, 2048] output weight matrix and the output bias. Its one matrix
  product contracts the last axis of both operands into a zero accumulator, and the bias is reshaped to one row and
  repeated down the rows; rounding the state to the narrow format changes nothing over the extended reals. So the
  stored entry `(p, q)` is the inner product of state row `p` with weight row `q`, plus bias entry `q`.
-/
import proofs.«132467_j90701119357081_1_alg».proof.Proof.Gen.KernelIdeal.Skeleton
import proofs.«132467_j90701119357081_1_alg».proof.Proof.Spec
import proofs.«132467_j90701119357081_1_alg».proof.Proof.LibRowDot
import Idealize.ShloMosaic.Lib.ValueLayout

noncomputable section

namespace Cert.KernelIdeal.Out

open Cert.KernelIdeal Cert.KernelIdeal.Gen Idealize.ShloMosaic Idealize.ShloMosaic.ValueIdx Cert.Gru
open scoped BigOperators

/-- The output projection: a [1024, 2048] left operand against the [1024, 2048] weight matrix. -/
theorem out_proj (l : FVec Ideal S1024x2048 .bf16) (w : FVec Ideal S1024x2048 .bf16) (p : Fin 1024) (q : Fin 1024) :
    matmul dot_S1024x2048_S1024x2048_S1024x1024_1_1_0_0_n_n none l w (constant S1024x1024 .f32 0x00000000#32) (ix2 p q)
      = rowDot (fun k => l (ix2 p k)) w q :=
  Cert.LibRowDot.matmul_zero_apply dot_S1024x2048_S1024x2048_S1024x1024_1_1_0_0_n_n rfl rfl
    (fun j c => by
      unfold DotDims.lhsIdx
      rw [dif_neg (show ¬(0 : Fin S1024x2048.rank) ∈ dot_S1024x2048_S1024x2048_S1024x1024_1_1_0_0_n_n.lhsBatch by decide),
        dif_pos (show (0 : Fin S1024x2048.rank) ∈ dot_S1024x2048_S1024x2048_S1024x1024_1_1_0_0_n_n.lhsNonContracting by decide)]
      rfl)
    (fun j c => dot_S1024x2048_S1024x2048_S1024x1024_1_1_0_0_n_n.lhsIdx_val_of_single rfl j c)
    (fun j c => by
      unfold DotDims.rhsIdx
      rw [dif_neg (show ¬(0 : Fin S1024x2048.rank) ∈ dot_S1024x2048_S1024x2048_S1024x1024_1_1_0_0_n_n.rhsBatch by decide),
        dif_pos (show (0 : Fin S1024x2048.rank) ∈ dot_S1024x2048_S1024x2048_S1024x1024_1_1_0_0_n_n.rhsNonContracting by decide)]
      rfl)
    (fun j c => dot_S1024x2048_S1024x2048_S1024x1024_1_1_0_0_n_n.rhsIdx_val_of_single rfl j c)
    none l w p q

/-- The output bias of 1024 entries, reshaped to one row and repeated down 1024 rows, read at `(p, q)`: entry `q`. -/
theorem bias_rows (b : FVec Ideal S1024 .f32) (p : Fin 1024) (q : Fin 1024) :
    broadcastTo S1024x1024 (shapeCast S1x1024 b shapeCasts_S1024_S1x1024) broadcasts_S1x1024_S1024x1024 (ix2 p q) = b (ix1 q) :=
  (broadcastTo_1b_ab_apply _ broadcasts_S1x1024_S1024x1024 p q).trans
    (shapeCast_a_1a_apply b shapeCasts_S1024_S1x1024 (0 : Fin 1) q)

/-- THE STORED ENTRY. What the body stores at `(p, q)`, from the blocks it loaded, is the output of state row `p` at `q`. -/
theorem stored_entry (n : FVec Ideal S1024x2048 .f32) (wo : FVec Ideal S1024x2048 .bf16) (bo : FVec Ideal S1024 .f32)
    (p : Fin 1024) (q : Fin 1024) :
    k1_pay1 (F := Ideal) n wo bo (ix2 p q) = outRow (rowOf n p) wo bo q := by
  unfold k1_pay1 outRow
  show matmul dot_S1024x2048_S1024x2048_S1024x1024_1_1_0_0_n_n none
        (truncf .bf16 (shapeCast S1024x2048 n shapeCasts_S1024x2048_S1024x2048) bitsLt_bf16_f32)
        (shapeCast S1024x2048 wo shapeCasts_S1024x2048_S1024x2048) (constant S1024x1024 .f32 0x00000000#32) (ix2 p q)
      + broadcastTo S1024x1024 (shapeCast S1x1024 bo shapeCasts_S1024_S1x1024) broadcasts_S1x1024_S1024x1024 (ix2 p q) = _
  rw [shapeCast_self, shapeCast_self, out_proj, bias_rows]
  rfl

end Cert.KernelIdeal.Out

end
-- ==== Proof.OutBlocks.lean ====
/-
  From the output kernel's blocks to the whole output array.

  The grid has 8 points. Point `t` reads rows `1024·t … 1024·t + 1023` of the new state, the whole output weight matrix
  and the whole output bias, and writes rows `1024·t … 1024·t + 1023` of the result. Entry `(p, q)` of what it writes is
  the output of its state row `p`, which is row `1024·t + p` of the state array, so point `t` writes exactly its block of
  `output` of the arrays as the region finds them; the 8 blocks cover all 8192 rows.
-/
import proofs.«132467_j90701119357081_1_alg».proof.Proof.Gen.KernelIdeal.Frame
import proofs.«132467_j90701119357081_1_alg».proof.Proof.OutBody
import Idealize.ShloMosaic.Lib.Pipeline.Value

noncomputable section

namespace Cert.KernelIdeal.Out

open Cert.KernelIdeal Cert.KernelIdeal.Gen Idealize.ShloMosaic Idealize.ShloMosaic.TcCoe Idealize.SL.Sem
open Idealize.ShloMosaic.ValueIdx Cert.Gru
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The state window and the result window sit at block row `t`, block column 0; the weights and the bias at block 0. -/
theorem block_facts : ∀ t : Fin cfg1.N, win1_0.index t (0 : Fin 2) = t.val ∧ win1_0.index t (1 : Fin 2) = 0
    ∧ win1_3.index t (0 : Fin 2) = t.val ∧ win1_3.index t (1 : Fin 2) = 0
    ∧ win1_1.index t (0 : Fin 2) = 0 ∧ win1_1.index t (1 : Fin 2) = 0 ∧ win1_2.index t (0 : Fin 1) = 0 :=
  (by decide +kernel : ∀ t : Fin grid1.N, _)

/-- Every block row is some point's. -/
theorem row_onto : ∀ r : Fin 8, ∃ t : Fin cfg1.N, t.val = r.val :=
  (by decide +kernel : ∀ r : Fin 8, ∃ t : Fin grid1.N, t.val = r.val)

/-- Row `p` of the state block at point `t` is row `1024·t + p` of the state array. -/
theorem state_block (c : Dev nD) (t : Fin cfg1.N) (p : Fin 1024) (P : Fin 8192) (hP : P.val = 1024 * t.val + p.val) :
    rowOf (iblk1 V c 0 t : Vec Ideal S1024x2048 .f32) p = rowOf (V c main_v7) P := by
  obtain ⟨e0, e1, -, -, -, -, -⟩ := block_facts t
  funext k
  show V c main_v7 (((cfg1.win 0).blk t).view.emb (ix2 p k)) = V c main_v7 (ix2 P k)
  refine congrArg (V c main_v7) (funext fun a => Fin.ext ?_)
  match a with
  | ⟨0, _⟩ => show win1_0.index t (0 : Fin 2) * 1024 + 1 * p.val = P.val; omega
  | ⟨1, _⟩ => show win1_0.index t (1 : Fin 2) * 2048 + 1 * k.val = k.val; omega

/-- The weight window's block is the whole weight matrix. -/
theorem weight_block (c : Dev nD) (t : Fin cfg1.N) : (iblk1 V c 1 t : Vec Ideal S1024x2048 .bf16) = V c main_v6 := by
  obtain ⟨-, -, -, -, e0, e1, -⟩ := block_facts t
  funext y
  show V c main_v6 (((cfg1.win 1).blk t).view.emb y) = V c main_v6 y
  refine congrArg (V c main_v6) (funext fun a => Fin.ext ?_)
  match a with
  | ⟨0, _⟩ => show win1_1.index t (0 : Fin 2) * 1024 + 1 * (y 0).val = (y 0).val; omega
  | ⟨1, _⟩ => show win1_1.index t (1 : Fin 2) * 2048 + 1 * (y 1).val = (y 1).val; omega

/-- The bias window's block is the whole bias. -/
theorem bias_block (c : Dev nD) (t : Fin cfg1.N) : (iblk1 V c 2 t : Vec Ideal S1024 .f32) = V c main_arg12 := by
  obtain ⟨-, -, -, -, -, -, e0⟩ := block_facts t
  funext y
  show V c main_arg12 (((cfg1.win 2).blk t).view.emb y) = V c main_arg12 y
  refine congrArg (V c main_arg12) (funext fun a => Fin.ext ?_)
  match a with
  | ⟨0, _⟩ => show win1_2.index t (0 : Fin 1) * 1024 + 1 * (y 0).val = (y 0).val; omega

/-- The output of the batch, of the arrays as the region finds them. -/
abbrev outResult (c : Dev nD) : S8192x1024.Idx → EReal :=
  output (V c main_v7) (V c main_v6) (V c main_arg12)

/-- WHAT POINT `t` WRITES BACK is its block of the batch's output. -/
theorem flushed_out (c : Dev nD) (t : Fin cfg1.N) :
    (dat1 V c).flushed 3 t = ((cfg1.win 3).blk t).view.read (Elt Ideal) (outResult V c) := by
  show (cfg1.win 3).cut (grid1.coords t) ((dat1 V c).after 3 t) = _
  rw [after1_3]
  unfold out1_3
  rw [View.canon_unit_zero zero2]
  simp only [View.ld_unit_zero (S := S1024x2048) zero2, View.ld_unit_zero (S := S1024) zero1]
  obtain ⟨-, -, e0, e1, -, -, -⟩ := block_facts t
  have hN : cfg1.N = 8 := N_1
  funext j
  obtain ⟨p, q, rfl⟩ : ∃ (p : Fin 1024) (q : Fin 1024), j = ix2 p q := ⟨j 0, j 1, eq_ix2 j⟩
  have ht : t.val < 8 := hN ▸ t.isLt
  let P : Fin 8192 := ⟨1024 * t.val + p.val, by have := p.isLt; omega⟩
  have hj : ((cfg1.win 3).blk t).view.emb (ix2 p q) = ix2 P q := funext fun a => Fin.ext (by
    match a with
    | ⟨0, _⟩ => show win1_3.index t (0 : Fin 2) * 1024 + 1 * p.val = 1024 * t.val + p.val; omega
    | ⟨1, _⟩ => show win1_3.index t (1 : Fin 2) * 1024 + 1 * q.val = q.val; omega)
  show k1_pay1 (F := Ideal) (iblk1 V c 0 t) (iblk1 V c 1 t) (iblk1 V c 2 t) (ix2 p q)
    = outResult V c (((cfg1.win 3).blk t).view.emb (ix2 p q))
  rw [hj]
  refine (stored_entry (iblk1 V c 0 t) (iblk1 V c 1 t) (iblk1 V c 2 t) p q).trans ?_
  rw [state_block V c t p P rfl, weight_block, bias_block]
  rfl

/-- An index of the result is in point `t`'s block iff each coordinate is in the block's range on its axis. -/
theorem mem_block (t : Fin cfg1.N) (i : S8192x1024.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v8).slice (win1_3.rect t)).set ↔ _
  rw [View.set_slice_whole, Rect.mem_set_unit]
  exact Iff.rfl

/-- Every entry of the result lies in the block of the point that owns its row: point `row / 1024`. -/
theorem covered (i : S8192x1024.Idx) : ∃ t : Fin cfg1.N, (cfg1.win 3).flush t = true ∧ i ∈ ((cfg1.win 3).blk t).view.set := by
  have hi0 : (i 0).val < 8192 := (i 0).isLt
  have hi1 : (i 1).val < 1024 := (i 1).isLt
  obtain ⟨t, ht⟩ := row_onto ⟨(i 0).val / 1024, by omega⟩
  have ht' : t.val = (i 0).val / 1024 := ht
  obtain ⟨-, -, e0, e1, -, -, -⟩ := block_facts t
  refine ⟨t, flush1_3 t, ?_⟩
  rw [mem_block]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-- THE ARRAY after the region: the batch's output, of the arrays as the region finds them. -/
theorem final_out (c : Dev nD) : (dat1 V c).arrAt 3 cfg1.N = outResult V c :=
  (dat1 V c).arrAt_eq_of_cover 3 (outResult V c) (fun t _ => flushed_out V c t) covered

end Cert.KernelIdeal.Out

end
-- ==== Proof.KernelRun.lean ====
/-
  The whole kernel program, read: seven roundings of the weights on the host, then the cell kernel, then the output
  kernel.

  Over the extended reals a rounding to the narrow format is the identity, so the cell kernel finds the weights
  themselves; its result array ends holding `newState` of the arguments. The output kernel finds that array, the output
  weights and the output bias, and its result array ends holding `output` of them. Neither kernel and no host operation
  writes an argument. The run below is the library's launch theorem for a program of several regions, at the generated
  frame's segments and proof data, with the final state read at the two result buffers as well as at the arguments.
-/
import proofs.«132467_j90701119357081_1_alg».proof.Proof.Gen.KernelIdeal.Frame
import proofs.«132467_j90701119357081_1_alg».proof.Proof.CellBlocks
import proofs.«132467_j90701119357081_1_alg».proof.Proof.OutBlocks
import Idealize.ShloMosaic.Lib.StableHlo.Run

set_option maxRecDepth 16384

noncomputable section

namespace Cert.KernelIdeal.Whole

open Cert.KernelIdeal Cert.KernelIdeal.Gen Cert.Gru
open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## What the cell kernel finds: the arguments, and the weights rounded (which is the weights) -/

theorem entry_arg0 (c : Dev nD) : V1 m ρ c main_arg0 = m ((c.tc : Thread nD τ).loc main_arg0) := by
  show StableHlo.after hostOps0 (W0 m ρ c) (Proc.devRef .tc main_arg0) = _
  after_results
theorem entry_arg1 (c : Dev nD) : V1 m ρ c main_arg1 = m ((c.tc : Thread nD τ).loc main_arg1) := by
  show StableHlo.after hostOps0 (W0 m ρ c) (Proc.devRef .tc main_arg1) = _
  after_results
theorem entry_arg3 (c : Dev nD) : V1 m ρ c main_arg3 = m ((c.tc : Thread nD τ).loc main_arg3) := by
  show StableHlo.after hostOps0 (W0 m ρ c) (Proc.devRef .tc main_arg3) = _
  after_results
theorem entry_arg6 (c : Dev nD) : V1 m ρ c main_arg6 = m ((c.tc : Thread nD τ).loc main_arg6) := by
  show StableHlo.after hostOps0 (W0 m ρ c) (Proc.devRef .tc main_arg6) = _
  after_results
theorem entry_arg9 (c : Dev nD) : V1 m ρ c main_arg9 = m ((c.tc : Thread nD τ).loc main_arg9) := by
  show StableHlo.after hostOps0 (W0 m ρ c) (Proc.devRef .tc main_arg9) = _
  after_results
theorem entry_arg12 (c : Dev nD) : V1 m ρ c main_arg12 = m ((c.tc : Thread nD τ).loc main_arg12) := by
  show StableHlo.after hostOps0 (W0 m ρ c) (Proc.devRef .tc main_arg12) = _
  after_results
theorem entry_v0 (c : Dev nD) : (V1 m ρ c main_v0 : S2048x1024.Idx → EReal) = m ((c.tc : Thread nD τ).loc main_arg2) := by
  show StableHlo.after hostOps0 (W0 m ρ c) (Proc.devRef .tc main_v0) = _
  after_results
  rfl
theorem entry_v1 (c : Dev nD) : (V1 m ρ c main_v1 : S2048x2048.Idx → EReal) = m ((c.tc : Thread nD τ).loc main_arg4) := by
  show StableHlo.after hostOps0 (W0 m ρ c) (Proc.devRef .tc main_v1) = _
  after_results
  rfl
theorem entry_v2 (c : Dev nD) : (V1 m ρ c main_v2 : S2048x1024.Idx → EReal) = m ((c.tc : Thread nD τ).loc main_arg5) := by
  show StableHlo.after hostOps0 (W0 m ρ c) (Proc.devRef .tc main_v2) = _
  after_results
  rfl
theorem entry_v3 (c : Dev nD) : (V1 m ρ c main_v3 : S2048x2048.Idx → EReal) = m ((c.tc : Thread nD τ).loc main_arg7) := by
  show StableHlo.after hostOps0 (W0 m ρ c) (Proc.devRef .tc main_v3) = _
  after_results
  rfl
theorem entry_v4 (c : Dev nD) : (V1 m ρ c main_v4 : S2048x1024.Idx → EReal) = m ((c.tc : Thread nD τ).loc main_arg8) := by
  show StableHlo.after hostOps0 (W0 m ρ c) (Proc.devRef .tc main_v4) = _
  after_results
  rfl
theorem entry_v5 (c : Dev nD) : (V1 m ρ c main_v5 : S2048x2048.Idx → EReal) = m ((c.tc : Thread nD τ).loc main_arg10) := by
  show StableHlo.after hostOps0 (W0 m ρ c) (Proc.devRef .tc main_v5) = _
  after_results
  rfl
theorem entry_v6 (c : Dev nD) : (V1 m ρ c main_v6 : S1024x2048.Idx → EReal) = m ((c.tc : Thread nD τ).loc main_arg11) := by
  show StableHlo.after hostOps0 (W0 m ρ c) (Proc.devRef .tc main_v6) = _
  after_results
  rfl

/-! ## The two result arrays after the run -/

/-- The new-state array after the cell kernel (and still after the output kernel, which only reads it). -/
theorem state_after_cell (c : Dev nD) : W2 m ρ c (Proc.devRef .tc main_v7) = (newState (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3)) (m ((c.tc : Thread nD τ).loc main_arg5)) (m ((c.tc : Thread nD τ).loc main_arg7)) (m ((c.tc : Thread nD τ).loc main_arg6)) (m ((c.tc : Thread nD τ).loc main_arg8)) (m ((c.tc : Thread nD τ).loc main_arg10)) (m ((c.tc : Thread nD τ).loc main_arg9))) := by
  refine (W2_arr m ρ c 11).trans ((Cell.final_cell (V1 m ρ) c).trans ?_)
  unfold Cell.cellResult
  rw [entry_arg0, entry_arg1, entry_arg3, entry_arg6, entry_arg9, entry_v0, entry_v1, entry_v2, entry_v3, entry_v4, entry_v5]

theorem state_result (c : Dev nD) : W3 m ρ c (Proc.devRef .tc main_v7) = (newState (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3)) (m ((c.tc : Thread nD τ).loc main_arg5)) (m ((c.tc : Thread nD τ).loc main_arg7)) (m ((c.tc : Thread nD τ).loc main_arg6)) (m ((c.tc : Thread nD τ).loc main_arg8)) (m ((c.tc : Thread nD τ).loc main_arg10)) (m ((c.tc : Thread nD τ).loc main_arg9))) :=
  ((W3_arr m ρ c 0).trans (((dat1 (V2 m ρ) c).arrAt_in 0 rfl _).trans (A_eq1 (V2 m ρ) c 0))).trans (state_after_cell m ρ c)

/-- The output array after the output kernel. -/
theorem output_result (c : Dev nD) : W3 m ρ c (Proc.devRef .tc main_v8) = output (newState (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3)) (m ((c.tc : Thread nD τ).loc main_arg5)) (m ((c.tc : Thread nD τ).loc main_arg7)) (m ((c.tc : Thread nD τ).loc main_arg6)) (m ((c.tc : Thread nD τ).loc main_arg8)) (m ((c.tc : Thread nD τ).loc main_arg10)) (m ((c.tc : Thread nD τ).loc main_arg9))) (m ((c.tc : Thread nD τ).loc main_arg11)) (m ((c.tc : Thread nD τ).loc main_arg12)) := by
  refine (W3_arr m ρ c 3).trans ((Out.final_out (V2 m ρ) c).trans ?_)
  have h7 : V2 m ρ c main_v7 = (newState (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3)) (m ((c.tc : Thread nD τ).loc main_arg5)) (m ((c.tc : Thread nD τ).loc main_arg7)) (m ((c.tc : Thread nD τ).loc main_arg6)) (m ((c.tc : Thread nD τ).loc main_arg8)) (m ((c.tc : Thread nD τ).loc main_arg10)) (m ((c.tc : Thread nD τ).loc main_arg9))) := state_after_cell m ρ c
  have h6 : (V2 m ρ c main_v6 : S1024x2048.Idx → EReal) = m ((c.tc : Thread nD τ).loc main_arg11) :=
    (W2_of_ne m ρ c main_v6 (by decide)).trans (entry_v6 m ρ c)
  have h12 : V2 m ρ c main_arg12 = m ((c.tc : Thread nD τ).loc main_arg12) :=
    (W2_of_ne m ρ c main_arg12 (by decide)).trans (entry_arg12 m ρ c)
  unfold Out.outResult
  rw [h7, h6, h12]

/-! ## The run -/

set_option backward.isDefEq.respectTransparency.types false in
/-- Every weakly fair execution of the kernel program terminates, nothing faulting, with the output array at `output` of
    the new state, the new-state array at `newState` of the arguments, and the arguments as launched. -/
theorem run : θ_run defs (onTc (τ := τ) (main (F := Ideal))) ⟨m, fun _ => 0, ρ⟩ (fun r => ∀ c : Dev nD,
      r.2.mem ((c.tc : Thread nD τ).loc main_v8) = output (newState (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3)) (m ((c.tc : Thread nD τ).loc main_arg5)) (m ((c.tc : Thread nD τ).loc main_arg7)) (m ((c.tc : Thread nD τ).loc main_arg6)) (m ((c.tc : Thread nD τ).loc main_arg8)) (m ((c.tc : Thread nD τ).loc main_arg10)) (m ((c.tc : Thread nD τ).loc main_arg9))) (m ((c.tc : Thread nD τ).loc main_arg11)) (m ((c.tc : Thread nD τ).loc main_arg12))
      ∧ r.2.mem ((c.tc : Thread nD τ).loc main_v7) = (newState (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3)) (m ((c.tc : Thread nD τ).loc main_arg5)) (m ((c.tc : Thread nD τ).loc main_arg7)) (m ((c.tc : Thread nD τ).loc main_arg6)) (m ((c.tc : Thread nD τ).loc main_arg8)) (m ((c.tc : Thread nD τ).loc main_arg10)) (m ((c.tc : Thread nD τ).loc main_arg9)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v8 (by decide))).trans (output_result m ρ c),
       (h c _ (mem_uc main_v7 (by decide))).trans (state_result m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c),
       (h c _ (mem_uc main_arg12 (by decide))).trans (W3_main_arg12 m ρ c)⟩)

end Cert.KernelIdeal.Whole

end
-- ==== Proof.RefValue.lean ====
/-
  The reference computes the same step for all 8192 rows at once, on the host.

  It transposes each weight matrix and contracts the input's last axis against the transposed matrix's first, which at
  `(p, q)` is again the inner product of row `p` with row `q` of the untransposed weights; it adds the bias to the input
  projection BEFORE the state projection (the kernel adds it after: the same sum); and it spells the logistic function
  out as `1 / (1 + e^(−a))`, which over the extended reals is that function at every argument, the infinities included.
  So its two results are `newState` and `output` of `newState`, entry by entry.
-/
import proofs.«132467_j90701119357081_1_alg».proof.Proof.Gen.ReferenceIdeal.Read
import proofs.«132467_j90701119357081_1_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Gru
open scoped BigOperators

/-- The broadcast scalar one, read anywhere. -/
theorem host_one (i : S8192x2048.Idx) :
    broadcastInDim S8192x2048 ![] bcast_S_S8192x2048 (constant (F := Ideal) S_ .f32 0x3F800000#32) i = one :=
  (val_main_v10_apply (F := Ideal) i).trans rfl

/-- The input projection of the whole batch at `(p, q)`. -/
theorem host_input_proj (x : FVec Ideal S8192x1024 .f32) (w : FVec Ideal S2048x1024 .f32) (p : Fin 8192) (q : Fin 2048) :
    Host.dotGeneral dot_S8192x1024_S1024x2048_S8192x2048_1_0_0_1_n_n none x
        (transpose S1024x2048 [1, 0] w transposes_S2048x1024_S1024x2048_1_0) (ix2 p q) = rowDot (rowOf x p) w q := by
  refine (val_main_v1_apply x w (ix2 p q)).trans ?_
  unfold rowDot
  refine Finset.sum_congr rfl fun k _ => ?_
  rw [val_main_v0_apply]
  have e1 : lidx_main_v1 (ix2 p q) k = ix2 p k := funext fun a => Fin.ext (by
    match a with
    | ⟨0, _⟩ => rfl
    | ⟨1, _⟩ => rfl)
  have e2 : idx_main_v0 (ridx_main_v1 (ix2 p q) k) = ix2 q k := funext fun a => Fin.ext (by
    match a with
    | ⟨0, _⟩ => rfl
    | ⟨1, _⟩ => rfl)
  rw [e1, e2]

/-- The state projection of the whole batch at `(p, q)`. -/
theorem host_state_proj (h : FVec Ideal S8192x2048 .f32) (w : FVec Ideal S2048x2048 .f32) (p : Fin 8192) (q : Fin 2048) :
    Host.dotGeneral dot_S8192x2048_S2048x2048_S8192x2048_1_0_0_1_n_n none h
        (transpose S2048x2048 [1, 0] w transposes_S2048x2048_S2048x2048_1_0) (ix2 p q) = rowDot (rowOf h p) w q := by
  refine (val_main_v6_apply h w (ix2 p q)).trans ?_
  unfold rowDot
  refine Finset.sum_congr rfl fun k _ => ?_
  rw [val_main_v5_apply]
  have e1 : lidx_main_v6 (ix2 p q) k = ix2 p k := funext fun a => Fin.ext (by
    match a with
    | ⟨0, _⟩ => rfl
    | ⟨1, _⟩ => rfl)
  have e2 : idx_main_v5 (ridx_main_v6 (ix2 p q) k) = ix2 q k := funext fun a => Fin.ext (by
    match a with
    | ⟨0, _⟩ => rfl
    | ⟨1, _⟩ => rfl)
  rw [e1, e2]

/-- A bias of 2048 entries broadcast over the batch, read at `(p, q)`: entry `q`. -/
theorem host_bias (b : FVec Ideal S2048 .f32) (p : Fin 8192) (q : Fin 2048) :
    broadcastInDim S8192x2048 ![0, 1] bcast_S1x2048_S8192x2048_0_1 (broadcastInDim S1x2048 ![1] bcast_S2048_S1x2048_1 b) (ix2 p q)
      = b (ix1 q) := by
  refine (val_main_v3_apply (F := Ideal) b (ix2 p q)).trans ?_
  rw [val_main_v2_apply]
  exact congrArg b (funext fun a => Fin.ext (by
    match a with
    | ⟨0, _⟩ => rfl))

/-- A gate as the reference spells it, at `(p, q)`: bias first, the logistic function written out. -/
theorem host_gate (x : FVec Ideal S8192x1024 .f32) (h : FVec Ideal S8192x2048 .f32) (wx : FVec Ideal S2048x1024 .f32)
    (b : FVec Ideal S2048 .f32) (wh : FVec Ideal S2048x2048 .f32) (p : Fin 8192) (q : Fin 2048) :
    val_main_v13 (F := Ideal) x h wx b wh (ix2 p q) = gate (rowOf x p) (rowOf h p) wx wh b q := by
  show Ideal.div
      (broadcastInDim S8192x2048 ![] bcast_S_S8192x2048 (constant (F := Ideal) S_ .f32 0x3F800000#32) (ix2 p q))
      (broadcastInDim S8192x2048 ![] bcast_S_S8192x2048 (constant (F := Ideal) S_ .f32 0x3F800000#32) (ix2 p q)
        + Ideal.exp (-((Host.dotGeneral dot_S8192x1024_S1024x2048_S8192x2048_1_0_0_1_n_n none x
              (transpose S1024x2048 [1, 0] wx transposes_S2048x1024_S1024x2048_1_0) (ix2 p q)
            + broadcastInDim S8192x2048 ![0, 1] bcast_S1x2048_S8192x2048_0_1
                (broadcastInDim S1x2048 ![1] bcast_S2048_S1x2048_1 b) (ix2 p q))
          + Host.dotGeneral dot_S8192x2048_S2048x2048_S8192x2048_1_0_0_1_n_n none h
              (transpose S2048x2048 [1, 0] wh transposes_S2048x2048_S2048x2048_1_0) (ix2 p q)))) = _
  rw [host_one, host_input_proj, host_bias, host_state_proj, bias_first, logistic_spelled]
  rfl

/-- The update gate is the same expression over its own weights. -/
theorem host_update_gate (x : FVec Ideal S8192x1024 .f32) (h : FVec Ideal S8192x2048 .f32) (wx : FVec Ideal S2048x1024 .f32)
    (b : FVec Ideal S2048 .f32) (wh : FVec Ideal S2048x2048 .f32) (p : Fin 8192) (q : Fin 2048) :
    val_main_v27 (F := Ideal) x h wx b wh (ix2 p q) = gate (rowOf x p) (rowOf h p) wx wh b q :=
  host_gate x h wx b wh p q

/-- The candidate state at `(p, q)`. -/
theorem host_candidate (x0 : FVec Ideal S8192x1024 .f32) (x1 : FVec Ideal S8192x2048 .f32) (x2 : FVec Ideal S2048x1024 .f32)
    (x3 : FVec Ideal S2048 .f32) (x4 : FVec Ideal S2048x2048 .f32) (x8 : FVec Ideal S2048x1024 .f32) (x9 : FVec Ideal S2048 .f32)
    (x10 : FVec Ideal S2048x2048 .f32) (p : Fin 8192) (q : Fin 2048) :
    val_main_v37 (F := Ideal) x0 x1 x2 x3 x4 x8 x9 x10 (ix2 p q)
      = candidate (rowOf x0 p) (rowOf x1 p) x2 x4 x3 x8 x10 x9 q := by
  have eh : val_main_v35 (F := Ideal) x0 x1 x2 x3 x4 x10 (ix2 p q)
      = rowDot (fun k => gate (rowOf x0 p) (rowOf x1 p) x2 x4 x3 k * rowOf x1 p k) x10 q := by
    refine (val_main_v35_apply x0 x1 x2 x3 x4 x10 (ix2 p q)).trans ?_
    unfold rowDot
    refine Finset.sum_congr rfl fun k _ => ?_
    rw [val_main_v34_apply]
    have e1 : lidx_main_v35 (ix2 p q) k = ix2 p k := funext fun a => Fin.ext (by
      match a with
      | ⟨0, _⟩ => rfl
      | ⟨1, _⟩ => rfl)
    have e2 : idx_main_v34 (ridx_main_v35 (ix2 p q) k) = ix2 q k := funext fun a => Fin.ext (by
      match a with
      | ⟨0, _⟩ => rfl
      | ⟨1, _⟩ => rfl)
    rw [e1, e2]
    show val_main_v13 (F := Ideal) x0 x1 x2 x3 x4 (ix2 p k) * x1 (ix2 p k) * x10 (ix2 q k) = _
    rw [host_gate]
  unfold candidate
  show Ideal.tanh ((Host.dotGeneral dot_S8192x1024_S1024x2048_S8192x2048_1_0_0_1_n_n none x0
            (transpose S1024x2048 [1, 0] x8 transposes_S2048x1024_S1024x2048_1_0) (ix2 p q)
          + broadcastInDim S8192x2048 ![0, 1] bcast_S1x2048_S8192x2048_0_1
              (broadcastInDim S1x2048 ![1] bcast_S2048_S1x2048_1 x9) (ix2 p q))
        + val_main_v35 (F := Ideal) x0 x1 x2 x3 x4 x10 (ix2 p q)) = _
  rw [host_input_proj, host_bias, eh, bias_first]

/-- THE FIRST RESULT of the reference is the new state of the batch. -/
theorem new_state_eq (x0 : FVec Ideal S8192x1024 .f32) (x1 : FVec Ideal S8192x2048 .f32) (x2 : FVec Ideal S2048x1024 .f32)
    (x3 : FVec Ideal S2048 .f32) (x4 : FVec Ideal S2048x2048 .f32) (x5 : FVec Ideal S2048x1024 .f32) (x6 : FVec Ideal S2048 .f32)
    (x7 : FVec Ideal S2048x2048 .f32) (x8 : FVec Ideal S2048x1024 .f32) (x9 : FVec Ideal S2048 .f32)
    (x10 : FVec Ideal S2048x2048 .f32) :
    val_main_v42 (F := Ideal) x0 x1 x2 x3 x4 x5 x6 x7 x8 x9 x10 = newState x0 x1 x2 x4 x3 x5 x7 x6 x8 x10 x9 := by
  funext i
  obtain ⟨p, q, rfl⟩ : ∃ (p : Fin 8192) (q : Fin 2048), i = ix2 p q := ⟨i 0, i 1, eq_ix2 i⟩
  rw [newState_apply]
  unfold newStateRow
  show val_main_v27 (F := Ideal) x0 x1 x5 x6 x7 (ix2 p q) * x1 (ix2 p q)
      + (broadcastInDim S8192x2048 ![] bcast_S_S8192x2048 (constant (F := Ideal) S_ .f32 0x3F800000#32) (ix2 p q)
          - val_main_v27 (F := Ideal) x0 x1 x5 x6 x7 (ix2 p q))
        * val_main_v37 (F := Ideal) x0 x1 x2 x3 x4 x8 x9 x10 (ix2 p q) = _
  rw [host_update_gate, host_one, host_candidate]

/-- THE SECOND RESULT of the reference is the output of that new state. -/
theorem output_eq (x0 : FVec Ideal S8192x1024 .f32) (x1 : FVec Ideal S8192x2048 .f32) (x2 : FVec Ideal S2048x1024 .f32)
    (x3 : FVec Ideal S2048 .f32) (x4 : FVec Ideal S2048x2048 .f32) (x5 : FVec Ideal S2048x1024 .f32) (x6 : FVec Ideal S2048 .f32)
    (x7 : FVec Ideal S2048x2048 .f32) (x8 : FVec Ideal S2048x1024 .f32) (x9 : FVec Ideal S2048 .f32)
    (x10 : FVec Ideal S2048x2048 .f32) (x11 : FVec Ideal S1024x2048 .f32) (x12 : FVec Ideal S1024 .f32) :
    val_main_v47 (F := Ideal) x0 x1 x2 x3 x4 x5 x6 x7 x8 x9 x10 x11 x12
      = output (newState x0 x1 x2 x4 x3 x5 x7 x6 x8 x10 x9) x11 x12 := by
  funext i
  obtain ⟨p, q, rfl⟩ : ∃ (p : Fin 8192) (q : Fin 1024), i = ix2 p q := ⟨i 0, i 1, eq_ix2 i⟩
  rw [output_apply, val_main_v47_apply, val_main_v44_apply, val_main_v46_apply, val_main_v45_apply, new_state_eq]
  unfold outRow rowDot
  show (∑ k : Fin 2048, newState x0 x1 x2 x4 x3 x5 x7 x6 x8 x10 x9 (lidx_main_v44 (ix2 p q) k)
        * val_main_v43 (F := Ideal) x11 (ridx_main_v44 (ix2 p q) k))
      + x12 (idx_main_v45 (idx_main_v46 (ix2 p q))) = _
  have eb : idx_main_v45 (idx_main_v46 (ix2 p q)) = ix1 q := funext fun a => Fin.ext (by
    match a with
    | ⟨0, _⟩ => rfl)
  rw [eb]
  refine congrArg (· + x12 (ix1 q)) (Finset.sum_congr rfl fun k _ => ?_)
  rw [val_main_v43_apply]
  have e1 : lidx_main_v44 (ix2 p q) k = ix2 p k := funext fun a => Fin.ext (by
    match a with
    | ⟨0, _⟩ => rfl
    | ⟨1, _⟩ => rfl)
  have e2 : idx_main_v43 (ridx_main_v44 (ix2 p q) k) = ix2 q k := funext fun a => Fin.ext (by
    match a with
    | ⟨0, _⟩ => rfl
    | ⟨1, _⟩ => rfl)
  rw [e1, e2]

end Cert.ReferenceIdeal.RefValue

end
-- ==== Proof.lean ====
/-
  One step of a gated recurrent unit for a batch of 8192 rows: a kernel program against a plain host program, equal as
  functions of the thirteen argument arrays over the extended reals.

  The kernel program rounds the seven weight matrices to a narrow format, computes the new state in blocks of 128 rows
  (reset and update gates, candidate, blend) and then the output projection in blocks of 1024 rows. The reference
  computes the same two arrays for all rows at once. Over the extended reals the roundings are the identity, each
  matrix product is an exact finite sum over the same index set in the same order on both sides, the logistic function
  and its spelling `1 / (1 + e^(−a))` are one function, and the only rearrangement between the two programs is the order
  in which a gate's bias and its state projection are added, which commutativity and associativity of addition cover
  (so the precondition that the inputs are finite is never opened). Both programs therefore end with the new-state array
  at `Cert.Gru.newState` of the arguments and the output array at `Cert.Gru.output` of it.

  The three frames are the generated ones (the reference's is its run with the results dropped); the idealization
  rewrote nothing, so `preserves` has nothing to state.
-/
import proofs.«132467_j90701119357081_1_alg».proof.Defs
import proofs.«132467_j90701119357081_1_alg».proof.Proof.Gen.Kernel
import proofs.«132467_j90701119357081_1_alg».proof.Proof.Gen.Kernel.Skeleton
import proofs.«132467_j90701119357081_1_alg».proof.Proof.Gen.Kernel.Launch
import proofs.«132467_j90701119357081_1_alg».proof.Proof.Gen.Kernel.Points
import proofs.«132467_j90701119357081_1_alg».proof.Proof.Gen.Kernel.Frame
import proofs.«132467_j90701119357081_1_alg».proof.Proof.Gen.KernelIdeal
import proofs.«132467_j90701119357081_1_alg».proof.Proof.Gen.KernelIdeal.Skeleton
import proofs.«132467_j90701119357081_1_alg».proof.Proof.Gen.KernelIdeal.Launch
import proofs.«132467_j90701119357081_1_alg».proof.Proof.Gen.KernelIdeal.Points
import proofs.«132467_j90701119357081_1_alg».proof.Proof.Gen.KernelIdeal.Frame
import proofs.«132467_j90701119357081_1_alg».proof.Proof.Gen.ReferenceIdeal
import proofs.«132467_j90701119357081_1_alg».proof.Proof.Gen.Pre_finite_inputs
import proofs.«132467_j90701119357081_1_alg».proof.Proof.Gen.ReferenceIdeal.Run
import proofs.«132467_j90701119357081_1_alg».proof.Proof.Gen.ReferenceIdeal.Read
import proofs.«132467_j90701119357081_1_alg».proof.Proof.KernelRun
import proofs.«132467_j90701119357081_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, with what it says of the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the output array at `output (newState …)` and the new-state array at `newState …` of the
    arguments: the kernel program by its run read block by block, the reference by its run read entry by entry, from
    memories that agree on the arguments. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12⟩ := hagree c
  refine ⟨(h c).1.trans ?_, (h c).2.1.trans ?_, (h c).2.2⟩
  · rw [a0, a1, a2, a3, a4, a5, a6, a7, a8, a9, a10, a11, a12]
    exact (Cert.ReferenceIdeal.Read.val_main_v47_eq (F := Ideal) _ _ _ _ _ _ _ _ _ _ _ _ _).trans
      (Cert.ReferenceIdeal.RefValue.output_eq _ _ _ _ _ _ _ _ _ _ _ _ _)
  · rw [a0, a1, a2, a3, a4, a5, a6, a7, a8, a9, a10]
    exact (Cert.ReferenceIdeal.Read.val_main_v42_eq (F := Ideal) _ _ _ _ _ _ _ _ _ _ _).trans
      (Cert.ReferenceIdeal.RefValue.new_state_eq _ _ _ _ _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
